-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048x1x1 : Shape := ⟨4, ![512, 2048, 1, 1]⟩
abbrev S2048x2048x1x1 : Shape := ⟨4, ![2048, 2048, 1, 1]⟩
abbrev S2048 : Shape := ⟨1, ![2048]⟩
abbrev S_ : Shape := ⟨0, ![]⟩

class Facts : Prop where
  bcast_S_S512x2048x1x1 : S_.BroadcastsInDim S512x2048x1x1 (![] : Fin 0 → Fin S512x2048x1x1.rank)
  reducesTo_S512x2048x1x1_S_d0_1_2_3 : S512x2048x1x1.ReducesTo [0, 1, 2, 3] S_
  h_S_ : 0 < S_.numel
  bcast_S_S2048x2048x1x1 : S_.BroadcastsInDim S2048x2048x1x1 (![] : Fin 0 → Fin S2048x2048x1x1.rank)
  reducesTo_S2048x2048x1x1_S_d0_1_2_3 : S2048x2048x1x1.ReducesTo [0, 1, 2, 3] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S512x2048x1x1 .f32) (main_arg1 : FVec F S2048x2048x1x1 .f32) (main_arg2 : FVec F S2048 .f32) (main_arg3 : FVec F S2048 .f32) : IVec S_ 1 :=
  let main_v0 : FVec F S512x2048x1x1 .f32 := Host.absf main_arg0
  let main_cst : FVec F S_ .f32 := constant S_ .f32 0x7F800000#32
  let main_v1 : FVec F S512x2048x1x1 .f32 := broadcastInDim S512x2048x1x1 ![] bcast_S_S512x2048x1x1 main_cst
  let main_v2 : IVec S512x2048x1x1 1 := cmpf .olt main_v0 main_v1
  let main_c : IVec S_ 1 := constantI S_ 1 1#1
  let main_v3 : IVec S_ 1 := (fun x v => Host.reduce IntOp.andi x v reducesTo_S512x2048x1x1_S_d0_1_2_3 h_S_) main_v2 main_c
  let main_v4 : FVec F S2048x2048x1x1 .f32 := Host.absf main_arg1
  let main_cst_0 : FVec F S_ .f32 := constant S_ .f32 0x7F800000#32
  let main_v5 : FVec F S2048x2048x1x1 .f32 := broadcastInDim S2048x2048x1x1 ![] bcast_S_S2048x2048x1x1 main_cst_0
  let main_v6 : IVec S2048x2048x1x1 1 := cmpf .olt main_v4 main_v5
  let main_c_1 : IVec S_ 1 := constantI S_ 1 1#1
  let main_v7 : IVec S_ 1 := (fun x v => Host.reduce IntOp.andi x v reducesTo_S2048x2048x1x1_S_d0_1_2_3 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S512x2048x1x1 : Shape := ⟨4, ![512, 2048, 1, 1]⟩
abbrev S2048x2048x1x1 : Shape := ⟨4, ![2048, 2048, 1, 1]⟩
abbrev S2048 : Shape := ⟨1, ![2048]⟩
abbrev S512x2048 : Shape := ⟨2, ![512, 2048]⟩
abbrev S2048x2048 : Shape := ⟨2, ![2048, 2048]⟩
abbrev S1x2048 : Shape := ⟨2, ![1, 2048]⟩
abbrev S256x2048 : Shape := ⟨2, ![256, 2048]⟩
abbrev S1x256 : Shape := ⟨2, ![1, 256]⟩
abbrev S512x256 : Shape := ⟨2, ![512, 256]⟩
abbrev S256 : Shape := ⟨1, ![256]⟩

abbrev nBuf : Space → Nat
  | .hbm => 9
  | .vmem => 9
  | .smem => 0
  | _ => 0

abbrev bufTy : (tb : Table) → Fin (tcTables nBuf tb) → BufTy
  | .hbm, ⟨0, _⟩ => ⟨S512x2048x1x1, .f32⟩
  | .hbm, ⟨1, _⟩ => ⟨S2048x2048x1x1, .f32⟩
  | .hbm, ⟨2, _⟩ => ⟨S2048, .f32⟩
  | .hbm, ⟨3, _⟩ => ⟨S2048, .f32⟩
  | .hbm, ⟨4, _⟩ => ⟨S512x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S512x2048, .f32⟩
  | .local _ .vmem, ⟨0, _⟩ => ⟨S512x2048, .f32⟩
  | .local _ .vmem, ⟨1, _⟩ => ⟨S256x2048, .f32⟩
  | .local _ .vmem, ⟨2, _⟩ => ⟨S256x2048, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | _, _ => ⟨S512x2048x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512x2048x1x1_S512x2048 : S512x2048x1x1.ShapeCasts S512x2048
  shapeCasts_S2048x2048x1x1_S2048x2048 : S2048x2048x1x1.ShapeCasts S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S512x256_S256 : S512x256.Reduces [0] S256
  shapeCasts_S256_S1x256 : S256.ShapeCasts S1x256
  broadcasts_S1x256_S512x256 : S1x256.Broadcasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .f32 = 32 ∨ (Rect.block (s := S1x2048) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x2048.size a
  hwx0_4 : ∀ i : grid0.Coords, EltTy.bits .f32 = 32 ∨ (Rect.block (s := S512x2048) S512x256.size (cc0_transform_4 i) (hinb0_4 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x2048x1x1 : Shape := ⟨4, ![512, 2048, 1, 1]⟩
abbrev S2048x2048x1x1 : Shape := ⟨4, ![2048, 2048, 1, 1]⟩
abbrev S2048 : Shape := ⟨1, ![2048]⟩
abbrev S0 : Shape := ⟨1, ![0]⟩
abbrev S512x2048 : Shape := ⟨2, ![512, 2048]⟩
abbrev S2048x2048 : Shape := ⟨2, ![2048, 2048]⟩
abbrev S_ : Shape := ⟨0, ![]⟩
abbrev S1x2048 : Shape := ⟨2, ![1, 2048]⟩
abbrev S1 : Shape := ⟨1, ![1]⟩

abbrev nBuf : Space → Nat
  | .hbm => 26
  | .vmem => 5
  | .smem => 0
  | _ => 0

abbrev bufTy : (tb : Table) → Fin (tcTables nBuf tb) → BufTy
  | .hbm, ⟨0, _⟩ => ⟨S512x2048x1x1, .f32⟩
  | .hbm, ⟨1, _⟩ => ⟨S2048x2048x1x1, .f32⟩
  | .hbm, ⟨2, _⟩ => ⟨S2048, .f32⟩
  | .hbm, ⟨3, _⟩ => ⟨S2048, .f32⟩
  | .hbm, ⟨4, _⟩ => ⟨S0, .i32⟩
  | .hbm, ⟨5, _⟩ => ⟨S0, .i32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S1x2048, .f32⟩
  | .hbm, ⟨17, _⟩ => ⟨S_, .i32⟩
  | .hbm, ⟨18, _⟩ => ⟨S1, .i32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S_, .i32⟩
  | .hbm, ⟨23, _⟩ => ⟨S1, .i32⟩
  | .hbm, ⟨24, _⟩ => ⟨S1x2048, .f32⟩
  | .hbm, ⟨25, _⟩ => ⟨S512x2048, .f32⟩
  | .local _ .vmem, ⟨0, _⟩ => ⟨S512x2048, .f32⟩
  | .local _ .vmem, ⟨1, _⟩ => ⟨S2048x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | _, _ => ⟨S512x2048x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_c_5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  hz_S0 : S0.numel = 0
  shapeCasts_S512x2048x1x1_S512x2048 : S512x2048x1x1.ShapeCasts S512x2048
  shapeCasts_S2048x2048x1x1_S2048x2048 : S2048x2048x1x1.ShapeCasts S2048x2048
  transposes_S2048x2048_S2048x2048_1_0 : S2048x2048.Transposes [1, 0] S2048x2048
  bcast_S_S2048x2048 : S_.BroadcastsInDim S2048x2048 (![] : Fin 0 → Fin S2048x2048.rank)
  bcast_S_S512x2048 : S_.BroadcastsInDim S512x2048 (![] : Fin 0 → Fin S512x2048.rank)
  bcast_S_S1x2048 : S_.BroadcastsInDim S1x2048 (![] : Fin 0 → Fin S1x2048.rank)
  bcast_S_S1 : S_.BroadcastsInDim S1 (![] : Fin 0 → Fin S1.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  iota_S512x2048_d0_w32 : S512x2048.Iotas .tc 32 [0]
  reduces_S512x2048_S2048 : S512x2048.Reduces [0] S2048
  shapeCasts_S2048_S1x2048 : S2048.ShapeCasts S1x2048
  broadcasts_S1x2048_S512x2048 : S1x2048.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  scatter_S2048x2048_S0_S2048x2048_01_n_n_0_wf : ScatterDims.WF S2048x2048 S0 S2048x2048 [0, 1] [] [] 0
  scatter_S512x2048_S0_S512x2048_01_n_n_0_wf : ScatterDims.WF S512x2048 S0 S512x2048 [0, 1] [] [] 0
  scatter_S1x2048_S1_S2048_0_0_0_0_wf : ScatterDims.WF S1x2048 S1 S2048 [0] [0] [0] 0
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)

variable [Facts₀]

def scatter_S2048x2048_S0_S2048x2048_01_n_n_0 : ScatterDims S2048x2048 S0 S2048x2048 where
  updateWindowDims := [0, 1]
  insertedWindowDims := []
  scatterDimsToOperandDims := []
  indexVectorDim := 0
  wf := scatter_S2048x2048_S0_S2048x2048_01_n_n_0_wf
def scatter_S512x2048_S0_S512x2048_01_n_n_0 : ScatterDims S512x2048 S0 S512x2048 where
  updateWindowDims := [0, 1]
  insertedWindowDims := []
  scatterDimsToOperandDims := []
  indexVectorDim := 0
  wf := scatter_S512x2048_S0_S512x2048_01_n_n_0_wf
def scatter_S1x2048_S1_S2048_0_0_0_0 : ScatterDims S1x2048 S1 S2048 where
  updateWindowDims := [0]
  insertedWindowDims := [0]
  scatterDimsToOperandDims := [0]
  indexVectorDim := 0
  wf := scatter_S1x2048_S1_S2048_0_0_0_0_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v6) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The batch-normalised linear layer as a function of its four arguments, over the exact extended reals.

  For an input `x` of 512 rows and 2048 features, a weight `W` of 2048 output channels by 2048 features, and per-channel
  scale `γ` and shift `β`:  `y(p, c) = Σ_e x(p, e) · W(c, e)`;  per channel `c`, over the 512 rows, the mean
  `μ(c) = (Σ_p y(p, c)) · 2⁻⁹` and the biased variance `v(c) = (Σ_p (y(p, c) − μ(c))²) · 2⁻⁹`;  then
  `z(p, c) = (y(p, c) − μ(c)) · (v(c) + ε)^(−1/2) · γ(c) + β(c)`  and the result is `z` where `z ≥ 0` and `z / 4` elsewhere.
  Everything after `y` touches one channel's column only: `column` is that map from a column of `y` (and the channel's
  `γ`, `β`) to the column of the result. The float constants are kept as the binary words both programs spell.
-/
import Idealize.ShloMosaic.PureOps.Ideal
import Idealize.ShloMosaic.Lib.ValueIdx

noncomputable section

namespace Cert.BnNeckSpec

open Idealize.ShloMosaic Idealize.ShloMosaic.ValueIdx

/-- `2⁻⁹ = 1/512`, the reciprocal of the number of rows (an exact binary fraction). -/
abbrev invRows : EReal := Ideal.ofBits .f32 0x3B000000#32
/-- The variance's guard `ε`: the binary word nearest `10⁻⁵`, the same word in both programs. -/
abbrev eps : EReal := Ideal.ofBits .f32 0x3727C5AC#32
/-- The slope `1/4` below zero. -/
abbrev slope : EReal := Ideal.ofBits .f32 0x3E800000#32
/-- The threshold `0`. -/
abbrev zero : EReal := Ideal.ofBits .f32 0x00000000#32

variable {n : ℕ}

/-- A column's mean: its sum times `2⁻⁹`. -/
def mean (Y : Fin n → EReal) : EReal := (∑ k : Fin n, Y k) * invRows

/-- A column's biased variance: the sum of the squared deviations from the mean, times `2⁻⁹`. -/
def var (Y : Fin n → EReal) : EReal := (∑ k : Fin n, (Y k - mean Y) * (Y k - mean Y)) * invRows

/-- One channel before the ramp: the column `Y` normalised, scaled by `γ` and shifted by `β`. -/
def normed (Y : Fin n → EReal) (γ β : EReal) (p : Fin n) : EReal :=
  (Y p - mean Y) * Ideal.rsqrt (var Y + eps) * γ + β

/-- One channel: the normalised, scaled and shifted column passed through the leaky ramp (`z` where `z ≥ 0`, `z / 4`
    elsewhere). -/
def column (Y : Fin n → EReal) (γ β : EReal) (p : Fin n) : EReal :=
  Scalar.select (Ideal.cmp .oge (normed Y γ β p) zero) (normed Y γ β p) (slope * normed Y γ β p)

/-- The product `y(p, c) = Σ_e x(p, e) · W(c, e)` over the arguments as the programs receive them (trailing unit axes). -/
def linear (x : (⟨4, ![512, 2048, 1, 1]⟩ : Shape).Idx → EReal) (W : (⟨4, ![2048, 2048, 1, 1]⟩ : Shape).Idx → EReal)
    (p : Fin 512) (c : Fin 2048) : EReal :=
  ∑ e : Fin 2048, x (ix4 p e 0 0) * W (ix4 c e 0 0)

/-- THE RESULT at row `p`, channel `c`. -/
def outAt (x : (⟨4, ![512, 2048, 1, 1]⟩ : Shape).Idx → EReal) (W : (⟨4, ![2048, 2048, 1, 1]⟩ : Shape).Idx → EReal)
    (γ β : (⟨1, ![2048]⟩ : Shape).Idx → EReal) (p : Fin 512) (c : Fin 2048) : EReal :=
  column (fun p' => linear x W p' c) (γ (ix1 c)) (β (ix1 c)) p

/-- THE RESULT as one array `[512, 2048]`. -/
def out (x : (⟨4, ![512, 2048, 1, 1]⟩ : Shape).Idx → EReal) (W : (⟨4, ![2048, 2048, 1, 1]⟩ : Shape).Idx → EReal)
    (γ β : (⟨1, ![2048]⟩ : Shape).Idx → EReal) : (⟨2, ![512, 2048]⟩ : Shape).Idx → EReal :=
  fun i => outAt x W γ β (i 0) (i 1)

theorem out_apply (x : (⟨4, ![512, 2048, 1, 1]⟩ : Shape).Idx → EReal) (W : (⟨4, ![2048, 2048, 1, 1]⟩ : Shape).Idx → EReal)
    (γ β : (⟨1, ![2048]⟩ : Shape).Idx → EReal) (p : Fin 512) (c : Fin 2048) :
    out x W γ β (ix2 p c) = outAt x W γ β p c := rfl

end Cert.BnNeckSpec

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.LibColumnSum.lean ====
/-
  The column sums of a matrix, read at an index at the exact extended reals: a general lemma.

  A sum-reduction of an `[a, b]` array over its row axis (axis 0) leaves a vector `[b]`; its entry `q` is the sum over
  the rows `k` of the array at `(k, q)`.
-/
import Idealize.ShloMosaic.PureOps.Ideal
import Idealize.ShloMosaic.PureOps.Ideal.Laws
import Idealize.ShloMosaic.Lib.ValueIdx

noncomputable section

namespace Cert.LibColumnSum

open Idealize.ShloMosaic Idealize.ShloMosaic.ValueIdx

variable {a b : ℕ}

/-- The index of the matrix over entry `q` of the reduced vector, with row coordinate `k` put back, is `(k, q)`. -/
theorem lift_eq (h : (⟨2, ![a, b]⟩ : Shape).Reduces [0] (⟨1, ![b]⟩ : Shape)) (q : Fin b) (k : Fin a) :
    h.lift (ix1 q) k = ix2 k q := by
  funext c
  apply Fin.ext
  refine (h.lift_val (ix1 q) k c).trans ?_
  unfold Shape.Reduces.liftVal
  match c with
  | ⟨0, _⟩ => rfl
  | ⟨1, _⟩ => rfl

/-- Entry `q` of the column sums is the sum over the rows of column `q`. -/
theorem colSum_apply {φ : FTy} (src : FVec Ideal (⟨2, ![a, b]⟩ : Shape) φ) (acc : BitVec φ.bits)
    (h : (⟨2, ![a, b]⟩ : Shape).Reduces [0] (⟨1, ![b]⟩ : Shape)) (hφ : FKind.Formats φ) (hacc : acc = FKind.add.neutral φ hφ)
    (q : Fin b) :
    multiReduction .add [0] (⟨1, ![b]⟩ : Shape) src acc h hφ hacc (ix1 q) = ∑ k : Fin a, src (ix2 k q) := by
  refine (Ideal.multiReduction_add_single src acc h hφ hacc (ix1 q)).trans ?_
  exact Finset.sum_congr rfl fun k _ => congrArg src (lift_eq h q k)

end Cert.LibColumnSum

end
-- ==== Proof.KernelPayload.lean ====
/-
  What the tiled kernel's body stores, read at an index.

  At a grid point the body holds the whole input `x` (512 × 2048), a tile of 256 weight rows (256 × 2048) and the tile's
  256 scales and shifts. It forms the 512 × 256 product of `x` against the tile's rows, and everything else it does
  is column by column: the entry at row `p`, tile column `q` is `column` (Spec.lean) of column `q` of the product, with
  the tile's scale and shift at `q`. The column sums are the body's two lane reductions over the row axis; the mean,
  the variance and the reciprocal root are rows `[1, 256]` broadcast back over the 512 rows.
-/
import proofs.«122829_g2000005020077940_pallasbulk_39_2_alg».proof.Proof.Gen.KernelIdeal.Skeleton
import proofs.«122829_g2000005020077940_pallasbulk_39_2_alg».proof.Proof.Spec
import proofs.«122829_g2000005020077940_pallasbulk_39_2_alg».proof.Proof.LibMatmulNT
import proofs.«122829_g2000005020077940_pallasbulk_39_2_alg».proof.Proof.LibColumnSum
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.BnNeckSpec

/-- The product of the input against the weight tile's rows: entry `(p, q)` is row `p` of `x` against row `q` of the tile. -/
theorem product_apply (x0 : FVec Ideal S512x2048 .f32) (x1 : FVec Ideal S256x2048 .f32) (p : Fin 512) (q : Fin 256) :
    matmul (F := Ideal) dot_S512x2048_S256x2048_S512x256_1_1_0_0_n_n none x0 x1 (constant S512x256 .f32 0x00000000#32) (ix2 p q)
      = ∑ e : Fin 2048, x0 (ix2 p e) * x1 (ix2 q e) := LibMatmulNT.matmul_zero_apply Facts₀.dot_S512x2048_S256x2048_S512x256_1_1_0_0_n_n_wf none x0 x1 p q

/-- A lane reduction over the 512 rows: entry `q` of the result is the sum of column `q`. -/
theorem colSum_apply (v : FVec Ideal S512x256 .f32) (q : Fin 256) (hφ : FKind.Formats .f32)
    (hacc : (0x00000000#32 : BitVec 32) = 0x00000000#32) :
    multiReduction (F := Ideal) .add [0] S256 v 0x00000000#32 reduces_S512x256_S256 hφ hacc (ix1 q)
      = ∑ k : Fin 512, v (ix2 k q) :=
  LibColumnSum.colSum_apply v 0x00000000#32 reduces_S512x256_S256 hφ hacc q

/-- A vector of 256 viewed as one row. -/
theorem row_apply (v : FVec Ideal S256 .f32) (q : Fin 256) :
    shapeCast S1x256 v shapeCasts_S256_S1x256 (ix2 (0 : Fin 1) q) = v (ix1 q) :=
  shapeCast_a_1a_apply v shapeCasts_S256_S1x256 0 q

/-- One row broadcast over the 512 rows. -/
theorem rows_apply (v : FVec Ideal S1x256 .f32) (p : Fin 512) (q : Fin 256) :
    broadcastTo S512x256 v broadcasts_S1x256_S512x256 (ix2 p q) = v (ix2 (0 : Fin 1) q) :=
  broadcastTo_1b_ab_apply v broadcasts_S1x256_S512x256 p q

/-- THE BODY'S STORE at row `p`, tile column `q`: the channel map of column `q` of the product of `x` against the tile. -/
theorem pay_apply (x0 : FVec Ideal S512x2048 .f32) (x1 : FVec Ideal S256x2048 .f32) (x2 x3 : FVec Ideal S1x256 .f32)
    (p : Fin 512) (q : Fin 256) :
    k0_pay1 (F := Ideal) x0 x1 x2 x3 (ix2 p q)
      = column (fun p' : Fin 512 => ∑ e : Fin 2048, x0 (ix2 p' e) * x1 (ix2 q e)) (x2 (ix2 (0 : Fin 1) q)) (x3 (ix2 (0 : Fin 1) q)) p := by
  unfold k0_pay1
  simp only [select_apply, cmpf_apply, addf_apply, mulf_apply, subf_apply, broadcast_apply, rsqrt, rows_apply, row_apply,
    shapeCast_self]
  repeat (rw [colSum_apply]; try simp only [addf_apply, mulf_apply, subf_apply, broadcast_apply, rows_apply, row_apply])
  rw [show (fun p' : Fin 512 => ∑ e : Fin 2048, x0 (ix2 p' e) * x1 (ix2 q e))
      = fun p' => matmul (F := Ideal) dot_S512x2048_S256x2048_S512x256_1_1_0_0_n_n none x0 x1 (constant S512x256 .f32 0x00000000#32) (ix2 p' q)
    from funext fun p' => (product_apply x0 x1 p' q).symm]
  rfl

end Cert.KernelIdeal.Payload

end
-- ==== Proof.KernelValue.lean ====
/-
  The tiled kernel's result array, as one function of its arguments.

  The grid has 8 points; point `t` holds the whole input, weight rows `256·t … 256·t + 255` and the same 256 channels'
  scales and shifts, and writes the 512 × 256 block of result columns `256·t … 256·t + 255`. Since the body's store at
  (row `p`, tile column `q`) is the channel map of column `q` of the input against the tile (KernelPayload.lean), and
  tile row `q` of point `t` is weight row `256·t + q`, each block is the restriction of `BnNeckSpec.out` to its columns;
  the 8 blocks cover the 2048 columns, so the array ends holding `out` of the four arguments.
  Before the region the arguments are only re-viewed: the two matrices drop their trailing unit axes, the two vectors
  become rows `[1, 2048]`.
-/
import proofs.«122829_g2000005020077940_pallasbulk_39_2_alg».proof.Proof.Gen.KernelIdeal.Value
import proofs.«122829_g2000005020077940_pallasbulk_39_2_alg».proof.Proof.KernelPayload
import Idealize.ShloMosaic.Lib.StableHlo.Run
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Cert.BnNeckSpec
open Idealize.ShloMosaic.Pipeline (Dat)

variable (m : (ℓ : Loc nD τ sig) → Buf (Elt Ideal) ℓ) (ρ : Dev nD → PrngReg)

/-! ## The arrays the region finds -/

/-- The input with its trailing unit axes dropped. -/
theorem V_input (c : Dev nD) (p : Fin 512) (e : Fin 2048) :
    (V m c main_v0 : S512x2048.Idx → EReal) (ix2 p e)
      = (m ((c : Thread nD τ).loc main_arg0) : S512x2048x1x1.Idx → EReal) (ix4 p e 0 0) := by
  have h : (V m c main_v0 : S512x2048.Idx → EReal)
      = shapeCast S512x2048 (m ((c : Thread nD τ).loc main_arg0) : S512x2048x1x1.Idx → EReal) shapeCasts_S512x2048x1x1_S512x2048 := by
    dsimp only [Gen.V, Gen.hostOps0]; after_results; rfl
  rw [h]
  refine shapeCast_apply _ _ (ix2 p e) (ix4 p e 0 0) ?_
  rw [Shape.rowMajor_val_four, Shape.rowMajor_val_two]
  show ((p.val * 2048 + e.val) * 1 + 0) * 1 + 0 = p.val * 2048 + e.val
  omega

/-- The weight with its trailing unit axes dropped. -/
theorem V_weight (c : Dev nD) (r : Fin 2048) (e : Fin 2048) :
    (V m c main_v1 : S2048x2048.Idx → EReal) (ix2 r e)
      = (m ((c : Thread nD τ).loc main_arg1) : S2048x2048x1x1.Idx → EReal) (ix4 r e 0 0) := by
  have h : (V m c main_v1 : S2048x2048.Idx → EReal)
      = shapeCast S2048x2048 (m ((c : Thread nD τ).loc main_arg1) : S2048x2048x1x1.Idx → EReal) shapeCasts_S2048x2048x1x1_S2048x2048 := by
    dsimp only [Gen.V, Gen.hostOps0]; after_results; rfl
  rw [h]
  refine shapeCast_apply _ _ (ix2 r e) (ix4 r e 0 0) ?_
  rw [Shape.rowMajor_val_four, Shape.rowMajor_val_two]
  show ((r.val * 2048 + e.val) * 1 + 0) * 1 + 0 = r.val * 2048 + e.val
  omega

/-- The scales as one row. -/
theorem V_scale (c : Dev nD) (r : Fin 2048) :
    (V m c main_v2 : S1x2048.Idx → EReal) (ix2 (0 : Fin 1) r)
      = (m ((c : Thread nD τ).loc main_arg2) : S2048.Idx → EReal) (ix1 r) := by
  have h : (V m c main_v2 : S1x2048.Idx → EReal)
      = shapeCast S1x2048 (m ((c : Thread nD τ).loc main_arg2) : S2048.Idx → EReal) shapeCasts_S2048_S1x2048 := by
    dsimp only [Gen.V, Gen.hostOps0]; after_results; rfl
  rw [h]
  exact shapeCast_a_1a_apply _ shapeCasts_S2048_S1x2048 0 r

/-- The shifts as one row. -/
theorem V_shift (c : Dev nD) (r : Fin 2048) :
    (V m c main_v3 : S1x2048.Idx → EReal) (ix2 (0 : Fin 1) r)
      = (m ((c : Thread nD τ).loc main_arg3) : S2048.Idx → EReal) (ix1 r) := by
  have h : (V m c main_v3 : S1x2048.Idx → EReal)
      = shapeCast S1x2048 (m ((c : Thread nD τ).loc main_arg3) : S2048.Idx → EReal) shapeCasts_S2048_S1x2048 := by
    dsimp only [Gen.V, Gen.hostOps0]; after_results; rfl
  rw [h]
  exact shapeCast_a_1a_apply _ shapeCasts_S2048_S1x2048 0 r

/-! ## One block -/

/-- THE RESULT: `BnNeckSpec.out` of the four arguments as launched. -/
abbrev result (c : Dev nD) : S512x2048.Idx → EReal :=
  out (m ((c : Thread nD τ).loc main_arg0)) (m ((c : Thread nD τ).loc main_arg1)) (m ((c : Thread nD τ).loc main_arg2))
    (m ((c : Thread nD τ).loc main_arg3))

/-- A block's entry is the result's: for blocks `x0 … x3` that hold the whole input, weight rows `256·T + q` and the
    scales and shifts of channels `256·T + q`, the body's store at block index `y` is `out` at the array index `i` with
    the same row and column `256·T + (y 1)`. -/
theorem block_entry (X : (⟨4, ![512, 2048, 1, 1]⟩ : Shape).Idx → EReal) (W : (⟨4, ![2048, 2048, 1, 1]⟩ : Shape).Idx → EReal)
    (γ β : (⟨1, ![2048]⟩ : Shape).Idx → EReal)
    (x0 : FVec Ideal S512x2048 .f32) (x1 : FVec Ideal S256x2048 .f32) (x2 x3 : FVec Ideal S1x256 .f32) (T : ℕ) (hT : T < 8)
    (h0 : ∀ (p : Fin 512) (e : Fin 2048), x0 (ix2 p e) = X (ix4 p e 0 0))
    (h1 : ∀ (q : Fin 256) (e : Fin 2048), x1 (ix2 q e) = W (ix4 ⟨T * 256 + q.val, by omega⟩ e 0 0))
    (h2 : ∀ q : Fin 256, x2 (ix2 (0 : Fin 1) q) = γ (ix1 ⟨T * 256 + q.val, by omega⟩))
    (h3 : ∀ q : Fin 256, x3 (ix2 (0 : Fin 1) q) = β (ix1 ⟨T * 256 + q.val, by omega⟩))
    (y : S512x256.Idx) (i : S512x2048.Idx) (hi0 : (i 0).val = (y 0).val) (hi1 : (i 1).val = T * 256 + (y 1).val) :
    k0_pay1 (F := Ideal) x0 x1 x2 x3 y = out X W γ β i := by
  obtain ⟨p, q, rfl⟩ : ∃ (p : Fin 512) (q : Fin 256), y = ix2 p q := ⟨y 0, y 1, eq_ix2 y⟩
  have hi : i = ix2 p (⟨T * 256 + q.val, by omega⟩ : Fin 2048) := by
    funext a
    apply Fin.ext
    match a with
    | ⟨0, _⟩ => exact hi0
    | ⟨1, _⟩ => exact hi1
  rw [hi, out_apply, Payload.pay_apply]
  unfold outAt linear
  rw [h2 q, h3 q]
  congr 1
  funext p'
  exact Finset.sum_congr rfl fun e _ => by rw [h0 p' e, h1 q e]

/-! ## The index maps over the grid -/

theorem hz : (![0, 0] : Fin 2 → Nat) = fun _ => 0 := funext fun a => by fin_cases a <;> rfl

/-- Decided over the 8 points: the input's block never moves; the weight tile's row block, the scales' and the shifts'
    column blocks move with the result's column block; the result's row block never moves. -/
theorem idx_facts : ∀ t : Fin cfg0.N,
    win0_0.index t (0 : Fin 2) = 0 ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = 0 ∧ win0_4.index t (1 : Fin 2) < 8 :=
  (by decide +kernel : ∀ t : Fin grid0.N, _)

/-- Every one of the 8 column blocks is some point's. -/
theorem idx_onto : ∀ q1 : Fin 8, ∃ t : Fin cfg0.N, win0_4.index t = ![0, q1.val] :=
  (by decide +kernel : ∀ q1 : Fin 8, ∃ t : Fin grid0.N, win0_4.index t = ![0, q1.val])

/-! ## What a point writes back -/

/-- WHAT POINT `t` WRITES BACK is block `t` of the result. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero hz]
  simp only [View.ld_unit_zero (S := S512x2048) hz, View.ld_unit_zero (S := S256x2048) hz, View.ld_unit_zero (S := S1x256) hz]
  obtain ⟨e00, e01, e10, e11, e20, e21, e30, e31, e40, e41⟩ := idx_facts t
  funext y
  show k0_pay1 (F := Ideal) (iblk m c 0 t) (iblk m c 1 t) (iblk m c 2 t) (iblk m c 3 t) y
    = result m c (((cfg0.win 4).blk t).view.emb y)
  refine block_entry _ _ _ _ (iblk m c 0 t) (iblk m c 1 t) (iblk m c 2 t) (iblk m c 3 t) (win0_4.index t (1 : Fin 2)) e41
    ?_ ?_ ?_ ?_ y _ ?_ ?_
  · intro p e
    show V m c main_v0 (((cfg0.win 0).blk t).view.emb (ix2 p e)) = _
    have hi : ((cfg0.win 0).blk t).view.emb (ix2 p e) = ix2 p e := by
      funext a; apply Fin.ext
      match a with
      | ⟨0, _⟩ => show win0_0.index t (0 : Fin 2) * 512 + 1 * p.val = p.val; omega
      | ⟨1, _⟩ => show win0_0.index t (1 : Fin 2) * 2048 + 1 * e.val = e.val; omega
    rw [hi]
    exact V_input m c p e
  · intro q e
    show V m c main_v1 (((cfg0.win 1).blk t).view.emb (ix2 q e)) = _
    have hi : ((cfg0.win 1).blk t).view.emb (ix2 q e)
        = ix2 (⟨win0_4.index t (1 : Fin 2) * 256 + q.val, by omega⟩ : Fin 2048) e := by
      funext a; apply Fin.ext
      match a with
      | ⟨0, _⟩ => show win0_1.index t (0 : Fin 2) * 256 + 1 * q.val = win0_4.index t (1 : Fin 2) * 256 + q.val; omega
      | ⟨1, _⟩ => show win0_1.index t (1 : Fin 2) * 2048 + 1 * e.val = e.val; omega
    rw [hi]
    exact V_weight m c _ e
  · intro q
    show V m c main_v2 (((cfg0.win 2).blk t).view.emb (ix2 (0 : Fin 1) q)) = _
    have hi : ((cfg0.win 2).blk t).view.emb (ix2 (0 : Fin 1) q)
        = ix2 (0 : Fin 1) (⟨win0_4.index t (1 : Fin 2) * 256 + q.val, by omega⟩ : Fin 2048) := by
      funext a; apply Fin.ext
      match a with
      | ⟨0, _⟩ => show win0_2.index t (0 : Fin 2) * 1 + 1 * 0 = 0; omega
      | ⟨1, _⟩ => show win0_2.index t (1 : Fin 2) * 256 + 1 * q.val = win0_4.index t (1 : Fin 2) * 256 + q.val; omega
    rw [hi]
    exact V_scale m c _
  · intro q
    show V m c main_v3 (((cfg0.win 3).blk t).view.emb (ix2 (0 : Fin 1) q)) = _
    have hi : ((cfg0.win 3).blk t).view.emb (ix2 (0 : Fin 1) q)
        = ix2 (0 : Fin 1) (⟨win0_4.index t (1 : Fin 2) * 256 + q.val, by omega⟩ : Fin 2048) := by
      funext a; apply Fin.ext
      match a with
      | ⟨0, _⟩ => show win0_3.index t (0 : Fin 2) * 1 + 1 * 0 = 0; omega
      | ⟨1, _⟩ => show win0_3.index t (1 : Fin 2) * 256 + 1 * q.val = win0_4.index t (1 : Fin 2) * 256 + q.val; omega
    rw [hi]
    exact V_shift m c _
  · show win0_4.index t (0 : Fin 2) * 512 + 1 * (y 0).val = (y 0).val
    omega
  · show win0_4.index t (1 : Fin 2) * 256 + 1 * (y 1).val = win0_4.index t (1 : Fin 2) * 256 + (y 1).val
    omega

/-! ## The blocks cover the array -/

/-- An index of the array is in point `t`'s block iff each coordinate is in the block's range on its axis. -/
theorem mem_blk (t : Fin cfg0.N) (i : S512x2048.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v4).slice (win0_4.rect t)).set ↔ _
  rw [View.set_slice_whole, Rect.mem_set_unit]
  exact Iff.rfl

/-- Column `r` lies in the block of the point whose column block is `r / 256`. -/
theorem cover (i : S512x2048.Idx) : ∃ t : Fin cfg0.N, (cfg0.win 4).flush t = true ∧ i ∈ ((cfg0.win 4).blk t).view.set := by
  have hi0 : (i 0).val < 512 := (i 0).isLt
  have hi1 : (i 1).val < 2048 := (i 1).isLt
  obtain ⟨t, ht⟩ := idx_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 256 ≤ (i 1).val ∧ (i 1).val < win0_4.index t (1 : Fin 2) * 256 + 256
    omega

/-! ## The array after the run, and the run -/

/-- THE ARRAY after the run is the result. -/
theorem final (c : Dev nD) : (dats m 0 c).arrAt 4 cfg0.N = result m c :=
  (dats m 0 c).arrAt_eq_of_cover 4 (result m c) (fun t _ => flushed_eq m c t) cover

/-- THE RUN: every weakly fair execution terminates with the result array at `BnNeckSpec.out` of the arguments, the
    arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 of the left factor with axis 0 of the right one, keep
    the left factor's rows and the right factor's columns, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.RefPayload.lean ====
/-
  What the one-block reference's body stores, read at an index.

  The body holds the whole input (512 × 2048), the whole transposed weight (2048 features × 2048 channels) and the rows
  of scales and shifts. It forms the plain 512 × 2048 product and then works column by column, exactly as the channel
  map `column` of Spec.lean — except that it masks its two column sums by "row index < 512". Every row index of a
  512-row block is below 512, so the mask is all ones and the masked sums are the plain ones.
-/
import proofs.«122829_g2000005020077940_pallasbulk_39_2_alg».proof.Proof.Gen.ReferenceIdeal.Skeleton
import proofs.«122829_g2000005020077940_pallasbulk_39_2_alg».proof.Proof.Spec
import proofs.«122829_g2000005020077940_pallasbulk_39_2_alg».proof.Proof.LibMatmulNN
import proofs.«122829_g2000005020077940_pallasbulk_39_2_alg».proof.Proof.LibColumnSum
import Idealize.ShloMosaic.Lib.ValueLayout
import Idealize.ShloMosaic.Lib.Pipeline.Value
import Idealize.ShloMosaic.Lib.Affine
import Idealize.ShloMosaic.Lib.WordArith

noncomputable section

namespace Cert.ReferenceIdeal.Payload

open Cert.ReferenceIdeal Cert.ReferenceIdeal.Gen Idealize.ShloMosaic Idealize.ShloMosaic.ValueIdx Cert.BnNeckSpec

/-- The plain product: entry `(p, q)` is row `p` of the input against column `q` of the transposed weight. -/
theorem product_apply (x0 : FVec Ideal S512x2048 .f32) (x1 : FVec Ideal S2048x2048 .f32) (p : Fin 512) (q : Fin 2048) :
    matmul (F := Ideal) dot_S512x2048_S2048x2048_S512x2048_1_0_0_1_n_n none x0 x1 (constant S512x2048 .f32 0x00000000#32) (ix2 p q)
      = ∑ e : Fin 2048, x0 (ix2 p e) * x1 (ix2 e q) :=
  LibMatmulNN.matmul_zero_apply Facts₀.dot_S512x2048_S2048x2048_S512x2048_1_0_0_1_n_n_wf none x0 x1 p q

/-- A lane reduction over the 512 rows: entry `q` of the result is the sum of column `q`. -/
theorem colSum_apply (v : FVec Ideal S512x2048 .f32) (q : Fin 2048) (hφ : FKind.Formats .f32)
    (hacc : (0x00000000#32 : BitVec 32) = 0x00000000#32) :
    multiReduction (F := Ideal) .add [0] S2048 v 0x00000000#32 reduces_S512x2048_S2048 hφ hacc (ix1 q)
      = ∑ k : Fin 512, v (ix2 k q) :=
  LibColumnSum.colSum_apply v 0x00000000#32 reduces_S512x2048_S2048 hφ hacc q

/-- A vector of 2048 viewed as one row. -/
theorem row_apply (v : FVec Ideal S2048 .f32) (q : Fin 2048) :
    shapeCast S1x2048 v shapeCasts_S2048_S1x2048 (ix2 (0 : Fin 1) q) = v (ix1 q) :=
  shapeCast_a_1a_apply v shapeCasts_S2048_S1x2048 0 q

/-- One row broadcast over the 512 rows. -/
theorem rows_apply (v : FVec Ideal S1x2048 .f32) (p : Fin 512) (q : Fin 2048) :
    broadcastTo S512x2048 v broadcasts_S1x2048_S512x2048 (ix2 p q) = v (ix2 (0 : Fin 1) q) :=
  broadcastTo_1b_ab_apply v broadcasts_S1x2048_S512x2048 p q

/-- The mask "row index < 512" is one at every index of the 512-row block. -/
theorem mask_apply (p : Fin 512) (q : Fin 2048) :
    cmpi .slt (iota .tc S512x2048 32 [0] iota_S512x2048_d0_w32) (broadcast S512x2048 512#32) (ix2 p q) = 1#1 := by
  show IntOp.cmpi .slt (iota .tc S512x2048 32 [0] iota_S512x2048_d0_w32 (ix2 p q)) 512#32 = 1#1
  rw [iota_single_apply, IntOp.cmpi_slt]
  show (BitVec.ofNat 32 p.val).toInt < (512#32 : BitVec 32).toInt
  rw [WordArith.toInt_ofNat_small p.val (by have := p.isLt; omega)]
  have h512 : (512#32 : BitVec 32).toInt = 512 := by decide
  rw [h512]
  exact_mod_cast p.isLt

/-- So the mask is the all-ones mask. -/
theorem mask_eq :
    cmpi .slt (iota .tc S512x2048 32 [0] iota_S512x2048_d0_w32) (broadcast S512x2048 512#32) = fun _ => 1#1 := by
  funext i
  obtain ⟨p, q, rfl⟩ : ∃ (p : Fin 512) (q : Fin 2048), i = ix2 p q := ⟨i 0, i 1, eq_ix2 i⟩
  exact mask_apply p q

/-- Selecting under the all-ones mask keeps the first operand. -/
theorem select_ones (a b : FVec Ideal S512x2048 .f32) : select (fun _ => 1#1) a b = a :=
  funext fun _ => select_one _ _

/-- THE BODY BEFORE THE RAMP at row `p`, channel `q`: the normalised, scaled and shifted column `q` of the product. -/
theorem normed_apply (x0 : FVec Ideal S512x2048 .f32) (x1 : FVec Ideal S2048x2048 .f32) (x2 x3 : FVec Ideal S1x2048 .f32)
    (p : Fin 512) (q : Fin 2048) :
    k0_pay2 (F := Ideal) x0 x1 x2 x3 (ix2 p q)
      = normed (fun p' : Fin 512 => ∑ e : Fin 2048, x0 (ix2 p' e) * x1 (ix2 e q)) (x2 (ix2 (0 : Fin 1) q)) (x3 (ix2 (0 : Fin 1) q)) p := by
  unfold k0_pay2
  rw [mask_eq]
  repeat rw [select_ones]
  simp only [addf_apply, mulf_apply, subf_apply, broadcast_apply, rsqrt, rows_apply, row_apply, shapeCast_self]
  repeat (rw [colSum_apply]; try simp only [addf_apply, mulf_apply, subf_apply, broadcast_apply, rows_apply, row_apply])
  rw [show (fun p' : Fin 512 => ∑ e : Fin 2048, x0 (ix2 p' e) * x1 (ix2 e q))
      = fun p' => matmul (F := Ideal) dot_S512x2048_S2048x2048_S512x2048_1_0_0_1_n_n none x0 x1 (constant S512x2048 .f32 0x00000000#32) (ix2 p' q)
    from funext fun p' => (product_apply x0 x1 p' q).symm]
  rfl

/-- THE BODY'S STORE at row `p`, channel `q`: the channel map of column `q` of the product. -/
theorem pay_apply (x0 : FVec Ideal S512x2048 .f32) (x1 : FVec Ideal S2048x2048 .f32) (x2 x3 : FVec Ideal S1x2048 .f32)
    (p : Fin 512) (q : Fin 2048) :
    k0_pay1 (F := Ideal) (k0_pay2 (F := Ideal) x0 x1 x2 x3) (k0_pay3 (F := Ideal) x0 x1 x2 x3) (Scalar.ofBits .f32 0x3E800000#32) (ix2 p q)
      = column (fun p' : Fin 512 => ∑ e : Fin 2048, x0 (ix2 p' e) * x1 (ix2 e q)) (x2 (ix2 (0 : Fin 1) q)) (x3 (ix2 (0 : Fin 1) q)) p := by
  unfold k0_pay1 k0_pay3
  simp only [select_apply, cmpf_apply, mulf_apply, broadcast_apply, normed_apply]
  rfl

end Cert.ReferenceIdeal.Payload

end
-- ==== Proof.LibScatterSet.lean ====
/-
  A host scatter that OVERWRITES (its body returns the update), read at one index: general lemmas.

  The scatter visits the update indices in row-major order; each visit whose result index lies inside the operand
  replaces the operand's entry there by the update's. When exactly one update index `j₀` lands on the operand index `i`,
  the result at `i` is the update at `j₀`, whatever the operand held and whatever the other visits did elsewhere.
  Two instances follow: an `[a, b]` array written whole over an `[a, b]` operand at no scatter index (the result is the
  update), and a vector `[b]` written as row `0` of a `[1, b]` operand at the one scatter index `0`.
-/
import Idealize.ShloMosaic.PureOps.ShapeOps
import Idealize.ShloMosaic.Lib.ValueIdx

noncomputable section

namespace Cert.LibScatterSet

open Idealize.ShloMosaic Idealize.ShloMosaic.ValueIdx

section Fold

variable {s si u : Shape} {w : ℕ} {α : Type}

/-- One visit of the overwriting scatter: update index number `n` (row-major) replaces the entry at its result index, if
    it has one. -/
def visit (d : ScatterDims s si u) (idx : IVec si w) (upd : u.Idx → α) (r : s.Idx → α) (n : Fin u.numel) : s.Idx → α :=
  match d.resultIdx? (u.rowMajor.symm n) idx with
  | some i₁ => fun i' => if i' = i₁ then upd (u.rowMajor.symm n) else r i'
  | none => r

/-- The overwriting scatter is the fold of its visits. -/
theorem scatter_eq_foldl (d : ScatterDims s si u) (x : s.Idx → α) (idx : IVec si w) (upd : u.Idx → α) :
    Host.scatter d (fun _ b => b) x idx upd = (List.finRange u.numel).foldl (visit d idx upd) x := rfl

/-- A visit that lands on `i` leaves the update there. -/
theorem visit_hit (d : ScatterDims s si u) (idx : IVec si w) (upd : u.Idx → α) (r : s.Idx → α) (n : Fin u.numel) (i : s.Idx)
    (h : d.resultIdx? (u.rowMajor.symm n) idx = some i) : visit d idx upd r n i = upd (u.rowMajor.symm n) := by
  unfold visit
  rw [h]
  exact if_pos rfl

/-- A visit that does not land on `i` leaves the entry at `i` as it was. -/
theorem visit_miss (d : ScatterDims s si u) (idx : IVec si w) (upd : u.Idx → α) (r : s.Idx → α) (n : Fin u.numel) (i : s.Idx)
    (h : d.resultIdx? (u.rowMajor.symm n) idx ≠ some i) : visit d idx upd r n i = r i := by
  unfold visit
  cases hres : d.resultIdx? (u.rowMajor.symm n) idx with
  | none => rfl
  | some i₁ =>
    have hne : i ≠ i₁ := fun e => h (by rw [hres, e])
    exact if_neg hne

/-- Over visits numbered by a list without repeats, when `j₀` is the only update index landing on `i`: the entry at `i`
    is the update at `j₀` once `j₀` has been visited, and untouched before. -/
theorem foldl_visit_apply (d : ScatterDims s si u) (idx : IVec si w) (upd : u.Idx → α) (i : s.Idx) (j₀ : u.Idx)
    (hit : d.resultIdx? j₀ idx = some i) (uniq : ∀ j, d.resultIdx? j idx = some i → j = j₀) :
    ∀ (l : List (Fin u.numel)), l.Nodup → ∀ r : s.Idx → α,
      (l.foldl (visit d idx upd) r) i = if u.rowMajor j₀ ∈ l then upd j₀ else r i := by
  intro l
  induction l with
  | nil => intro _ r; rfl
  | cons a l ih =>
    intro hl r
    have hl' := List.nodup_cons.mp hl
    rw [List.foldl_cons, ih hl'.2]
    by_cases ha : a = u.rowMajor j₀
    · subst ha
      rw [if_neg hl'.1, if_pos List.mem_cons_self, visit_hit d idx upd r _ i (by rw [Equiv.symm_apply_apply]; exact hit),
        Equiv.symm_apply_apply]
    · have hne : d.resultIdx? (u.rowMajor.symm a) idx ≠ some i := fun h =>
        ha (by rw [← uniq _ h, Equiv.apply_symm_apply])
      by_cases hm : u.rowMajor j₀ ∈ l
      · rw [if_pos hm, if_pos (List.mem_cons_of_mem _ hm)]
      · rw [if_neg hm, if_neg (fun h => (List.mem_cons.mp h).elim (fun e => ha e.symm) hm), visit_miss d idx upd r a i hne]

/-- THE READING: when `j₀` is the one update index that lands on `i`, the overwriting scatter's result at `i` is the
    update at `j₀`. -/
theorem scatter_set_apply (d : ScatterDims s si u) (x : s.Idx → α) (idx : IVec si w) (upd : u.Idx → α) (i : s.Idx) (j₀ : u.Idx)
    (hit : d.resultIdx? j₀ idx = some i) (uniq : ∀ j, d.resultIdx? j idx = some i → j = j₀) :
    Host.scatter d (fun _ b => b) x idx upd i = upd j₀ := by
  rw [scatter_eq_foldl, foldl_visit_apply d idx upd i j₀ hit uniq _ (List.nodup_finRange _) x]
  exact if_pos (List.mem_finRange _)

end Fold

/-! ## A matrix written whole -/

section Whole

variable {a b w : ℕ} {α : Type}

/-- The dimension numbers of "write the whole `[a, b]` update over the `[a, b]` operand": both update axes are window
    axes, nothing is inserted, no operand axis takes a start from the (empty) scatter indices. -/
abbrev dimsWhole (wf : ScatterDims.WF (⟨2, ![a, b]⟩ : Shape) (⟨1, ![0]⟩ : Shape) (⟨2, ![a, b]⟩ : Shape) [0, 1] [] [] 0) :
    ScatterDims (⟨2, ![a, b]⟩ : Shape) (⟨1, ![0]⟩ : Shape) (⟨2, ![a, b]⟩ : Shape) where
  updateWindowDims := [0, 1]
  insertedWindowDims := []
  scatterDimsToOperandDims := []
  indexVectorDim := 0
  wf := wf

variable (wf : ScatterDims.WF (⟨2, ![a, b]⟩ : Shape) (⟨1, ![0]⟩ : Shape) (⟨2, ![a, b]⟩ : Shape) [0, 1] [] [] 0)

/-- Every window starts at the origin. -/
theorem start_whole (idx : IVec (⟨1, ![0]⟩ : Shape) w) (j : (⟨2, ![a, b]⟩ : Shape).Idx) (c : Fin 2) :
    (dimsWhole wf).start j idx c = 0 := by
  unfold ScatterDims.start
  exact dif_neg List.not_mem_nil

/-- The window coordinate of update index `j` on an axis is `j`'s own coordinate. -/
theorem window_whole (j : (⟨2, ![a, b]⟩ : Shape).Idx) (c : Fin 2) : (dimsWhole wf).window j c = (j c).val := by
  unfold ScatterDims.window
  match c with
  | ⟨0, _⟩ => rfl
  | ⟨1, _⟩ => rfl

/-- Update index `j` lands on operand index `j`. -/
theorem resultIdx_whole (idx : IVec (⟨1, ![0]⟩ : Shape) w) (j : (⟨2, ![a, b]⟩ : Shape).Idx) :
    (dimsWhole wf).resultIdx? j idx = some j := by
  unfold ScatterDims.resultIdx?
  have hc : ∀ c, 0 ≤ (dimsWhole wf).start j idx c + (dimsWhole wf).window j c
      ∧ (dimsWhole wf).start j idx c + (dimsWhole wf).window j c < (⟨2, ![a, b]⟩ : Shape).size c := fun c => by
    rw [start_whole wf idx j c, window_whole wf j c]
    have := (j c).isLt
    omega
  rw [dif_pos hc]
  refine congrArg some (funext fun c => Fin.ext ?_)
  show ((dimsWhole wf).start j idx c + (dimsWhole wf).window j c).toNat = (j c).val
  rw [start_whole wf idx j c, window_whole wf j c]
  omega

/-- THE WHOLE WRITE: the result is the update. -/
theorem scatter_whole (x : (⟨2, ![a, b]⟩ : Shape).Idx → α) (idx : IVec (⟨1, ![0]⟩ : Shape) w)
    (upd : (⟨2, ![a, b]⟩ : Shape).Idx → α) : Host.scatter (dimsWhole wf) (fun _ b => b) x idx upd = upd :=
  funext fun i => scatter_set_apply (dimsWhole wf) x idx upd i i (resultIdx_whole wf idx i) fun j h => by
    rw [resultIdx_whole wf idx j] at h
    exact Option.some.inj h

end Whole

/-! ## A vector written as the one row of a one-row matrix -/

section Row

variable {b w : ℕ} {α : Type}

/-- The dimension numbers of "write the `[b]` update as row `k` of the `[1, b]` operand, `k` the one scatter index":
    the update's axis is the window axis and goes to the operand's column axis, the row axis is inserted and takes its
    start from the scatter index. -/
abbrev dimsRow (wf : ScatterDims.WF (⟨2, ![1, b]⟩ : Shape) (⟨1, ![1]⟩ : Shape) (⟨1, ![b]⟩ : Shape) [0] [0] [0] 0) :
    ScatterDims (⟨2, ![1, b]⟩ : Shape) (⟨1, ![1]⟩ : Shape) (⟨1, ![b]⟩ : Shape) where
  updateWindowDims := [0]
  insertedWindowDims := [0]
  scatterDimsToOperandDims := [0]
  indexVectorDim := 0
  wf := wf

variable (wf : ScatterDims.WF (⟨2, ![1, b]⟩ : Shape) (⟨1, ![1]⟩ : Shape) (⟨1, ![b]⟩ : Shape) [0] [0] [0] 0)

/-- With the scatter index zero, every window starts at the origin. -/
theorem start_row (idx : IVec (⟨1, ![1]⟩ : Shape) w) (hidx : ∀ k, idx k = 0#w) (j : (⟨1, ![b]⟩ : Shape).Idx) (c : Fin 2) :
    (dimsRow wf).start j idx c = 0 := by
  unfold ScatterDims.start
  split
  · rw [hidx]; exact BitVec.toInt_zero
  · rfl

/-- The window coordinate of update index `j` on the inserted row axis: none. -/
theorem window_row0 (j : (⟨1, ![b]⟩ : Shape).Idx) : (dimsRow wf).window j 0 = 0 := by
  unfold ScatterDims.window
  rfl

/-- The window coordinate of update index `j` on the column axis: `j`'s coordinate. -/
theorem window_row1 (j : (⟨1, ![b]⟩ : Shape).Idx) : (dimsRow wf).window j 1 = (j 0).val := by
  unfold ScatterDims.window
  rfl

/-- Update index `j` lands on row `0`, column `j`. -/
theorem resultIdx_row (idx : IVec (⟨1, ![1]⟩ : Shape) w) (hidx : ∀ k, idx k = 0#w) (j : (⟨1, ![b]⟩ : Shape).Idx) :
    (dimsRow wf).resultIdx? j idx = some (ix2 (0 : Fin 1) (j 0)) := by
  unfold ScatterDims.resultIdx?
  have hj : (j 0).val < b := (j 0).isLt
  have hc : ∀ c, 0 ≤ (dimsRow wf).start j idx c + (dimsRow wf).window j c
      ∧ (dimsRow wf).start j idx c + (dimsRow wf).window j c < (⟨2, ![1, b]⟩ : Shape).size c := fun c => by
    rw [start_row wf idx hidx j c]
    match c with
    | ⟨0, _⟩ =>
      show (0 : Int) ≤ 0 + ((dimsRow wf).window j 0 : ℕ) ∧ (0 : Int) + ((dimsRow wf).window j 0 : ℕ) < ((1 : ℕ) : Int)
      rw [window_row0 wf j]
      omega
    | ⟨1, _⟩ =>
      show (0 : Int) ≤ 0 + ((dimsRow wf).window j 1 : ℕ) ∧ (0 : Int) + ((dimsRow wf).window j 1 : ℕ) < ((b : ℕ) : Int)
      rw [window_row1 wf j]
      omega
  rw [dif_pos hc]
  refine congrArg some (funext fun c => Fin.ext ?_)
  show ((dimsRow wf).start j idx c + (dimsRow wf).window j c).toNat = (ix2 (0 : Fin 1) (j 0) c).val
  rw [start_row wf idx hidx j c]
  match c with
  | ⟨0, _⟩ =>
    show ((0 : Int) + ((dimsRow wf).window j 0 : ℕ)).toNat = 0
    rw [window_row0 wf j]
    rfl
  | ⟨1, _⟩ =>
    show ((0 : Int) + ((dimsRow wf).window j 1 : ℕ)).toNat = (j 0).val
    rw [window_row1 wf j]
    omega

/-- THE ROW WRITE: with the scatter index zero, the result's row `0` is the update. -/
theorem scatter_row (x : (⟨2, ![1, b]⟩ : Shape).Idx → α) (idx : IVec (⟨1, ![1]⟩ : Shape) w) (hidx : ∀ k, idx k = 0#w)
    (upd : (⟨1, ![b]⟩ : Shape).Idx → α) (q : Fin b) :
    Host.scatter (dimsRow wf) (fun _ b => b) x idx upd (ix2 (0 : Fin 1) q) = upd (ix1 q) :=
  scatter_set_apply (dimsRow wf) x idx upd (ix2 (0 : Fin 1) q) (ix1 q) (resultIdx_row wf idx hidx (ix1 q)) fun j h => by
    rw [resultIdx_row wf idx hidx j] at h
    have hq : j 0 = q := congrFun (Option.some.inj h) 1
    funext d
    match d with
    | ⟨0, _⟩ => exact hq

end Row

end Cert.LibScatterSet

end
-- ==== Proof.RefOperands.lean ====
/-
  The operands the one-block reference hands to its region, as functions of its arguments.

  Before its region the reference builds its four operands by writing into zero arrays: the input (trailing unit axes
  dropped) written whole over a `[512, 2048]` zero array, the weight (unit axes dropped, then transposed to features ×
  channels) written whole over a `[2048, 2048]` zero array, and the scales and the shifts each written as row `0` of a
  `[1, 2048]` zero array. Each write covers its whole array, so the zeros never show: the operands are the arguments,
  re-viewed.
-/
import proofs.«122829_g2000005020077940_pallasbulk_39_2_alg».proof.Proof.Gen.ReferenceIdeal.Frame
import proofs.«122829_g2000005020077940_pallasbulk_39_2_alg».proof.Proof.LibScatterSet
import Idealize.ShloMosaic.Lib.StableHlo.Run
import Idealize.ShloMosaic.Lib.Pipeline.Value
import Idealize.ShloMosaic.Lib.ValueLayout

noncomputable section

namespace Cert.ReferenceIdeal.Operands

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-! ## The three writes' dimension numbers are the general ones -/

theorem dims_input : scatter_S512x2048_S0_S512x2048_01_n_n_0
    = LibScatterSet.dimsWhole Facts₀.scatter_S512x2048_S0_S512x2048_01_n_n_0_wf := rfl

theorem dims_weight : scatter_S2048x2048_S0_S2048x2048_01_n_n_0
    = LibScatterSet.dimsWhole Facts₀.scatter_S2048x2048_S0_S2048x2048_01_n_n_0_wf := rfl

theorem dims_row : scatter_S1x2048_S1_S2048_0_0_0_0
    = LibScatterSet.dimsRow Facts₀.scatter_S1x2048_S1_S2048_0_0_0_0_wf := rfl

/-- The one scatter index of the row writes is zero. -/
theorem index_zero (k : S1.Idx) : broadcastInDim S1 ![] bcast_S_S1 (constantI S_ 32 0#32) k = 0#32 := rfl

/-! ## The arrays the region finds -/

/-- The input operand: the input with its trailing unit axes dropped (written whole over zeros). -/
theorem V_input (c : Dev nD) (p : Fin 512) (e : Fin 2048) :
    (V m c main_v6 : S512x2048.Idx → EReal) (ix2 p e)
      = (m ((c : Thread nD τ).loc main_arg0) : S512x2048x1x1.Idx → EReal) (ix4 p e 0 0) := by
  have h : (V m c main_v6 : S512x2048.Idx → EReal)
      = Host.scatter scatter_S512x2048_S0_S512x2048_01_n_n_0 (fun _ b => b)
          (broadcastInDim S512x2048 ![] bcast_S_S512x2048 (constant (F := Ideal) S_ .f32 0x00000000#32)) (emptyVec S0 hz_S0 : IVec S0 32)
          (shapeCast S512x2048 (m ((c : Thread nD τ).loc main_arg0) : S512x2048x1x1.Idx → EReal)
            shapeCasts_S512x2048x1x1_S512x2048) := by
    dsimp only [Gen.V, Gen.hostOps0]; after_results; rfl
  rewrite [h, dims_input, LibScatterSet.scatter_whole]
  refine shapeCast_apply _ _ (ix2 p e) (ix4 p e 0 0) ?_
  rw [Shape.rowMajor_val_four, Shape.rowMajor_val_two]
  show ((p.val * 2048 + e.val) * 1 + 0) * 1 + 0 = p.val * 2048 + e.val
  omega

/-- The weight operand, features × channels: entry `(e, r)` is the weight at (channel `r`, feature `e`). -/
theorem V_weight (c : Dev nD) (e : Fin 2048) (r : Fin 2048) :
    (V m c main_v4 : S2048x2048.Idx → EReal) (ix2 e r)
      = (m ((c : Thread nD τ).loc main_arg1) : S2048x2048x1x1.Idx → EReal) (ix4 r e 0 0) := by
  have h : (V m c main_v4 : S2048x2048.Idx → EReal)
      = Host.scatter scatter_S2048x2048_S0_S2048x2048_01_n_n_0 (fun _ b => b)
          (broadcastInDim S2048x2048 ![] bcast_S_S2048x2048 (constant (F := Ideal) S_ .f32 0x00000000#32)) (emptyVec S0 hz_S0 : IVec S0 32)
          (transpose S2048x2048 [1, 0]
            (shapeCast S2048x2048 (m ((c : Thread nD τ).loc main_arg1) : S2048x2048x1x1.Idx → EReal)
              shapeCasts_S2048x2048x1x1_S2048x2048) transposes_S2048x2048_S2048x2048_1_0) := by
    dsimp only [Gen.V, Gen.hostOps0]; after_results; rfl
  rewrite [h, dims_weight, LibScatterSet.scatter_whole]
  refine (transpose_ix2_apply _ transposes_S2048x2048_S2048x2048_1_0 e r).trans ?_
  refine shapeCast_apply _ _ (ix2 r e) (ix4 r e 0 0) ?_
  rw [Shape.rowMajor_val_four, Shape.rowMajor_val_two]
  show ((r.val * 2048 + e.val) * 1 + 0) * 1 + 0 = r.val * 2048 + e.val
  omega

/-- The scales operand: the scales as row `0`. -/
theorem V_scale (c : Dev nD) (r : Fin 2048) :
    (V m c main_v9 : S1x2048.Idx → EReal) (ix2 (0 : Fin 1) r)
      = (m ((c : Thread nD τ).loc main_arg2) : S2048.Idx → EReal) (ix1 r) := by
  have h : (V m c main_v9 : S1x2048.Idx → EReal)
      = Host.scatter scatter_S1x2048_S1_S2048_0_0_0_0 (fun _ b => b)
          (broadcastInDim S1x2048 ![] bcast_S_S1x2048 (constant (F := Ideal) S_ .f32 0x00000000#32))
          (broadcastInDim S1 ![] bcast_S_S1 (constantI S_ 32 0#32))
          (m ((c : Thread nD τ).loc main_arg2) : S2048.Idx → EReal) := by
    dsimp only [Gen.V, Gen.hostOps0]; after_results
  rewrite [h, dims_row]
  exact LibScatterSet.scatter_row _ _ _ index_zero _ r

/-- The shifts operand: the shifts as row `0`. -/
theorem V_shift (c : Dev nD) (r : Fin 2048) :
    (V m c main_v12 : S1x2048.Idx → EReal) (ix2 (0 : Fin 1) r)
      = (m ((c : Thread nD τ).loc main_arg3) : S2048.Idx → EReal) (ix1 r) := by
  have h : (V m c main_v12 : S1x2048.Idx → EReal)
      = Host.scatter scatter_S1x2048_S1_S2048_0_0_0_0 (fun _ b => b)
          (broadcastInDim S1x2048 ![] bcast_S_S1x2048 (constant (F := Ideal) S_ .f32 0x00000000#32))
          (broadcastInDim S1 ![] bcast_S_S1 (constantI S_ 32 0#32))
          (m ((c : Thread nD τ).loc main_arg3) : S2048.Idx → EReal) := by
    dsimp only [Gen.V, Gen.hostOps0]; after_results
  rewrite [h, dims_row]
  exact LibScatterSet.scatter_row _ _ _ index_zero _ r

end Cert.ReferenceIdeal.Operands

end
-- ==== Proof.RefValue.lean ====
/-
  The one-block reference's result array, as one function of its arguments.

  The operands the region finds are the arguments re-viewed (RefOperands.lean): the input without its unit axes, the
  weight transposed to features × channels, the scales and the shifts as rows. The grid has one point, whose blocks are the whole arrays; the body's store at (row `p`, channel `q`) is the
  channel map of column `q` of the product (RefPayload.lean), and column `q` of the transposed weight is weight row `q`:
  the array ends holding `BnNeckSpec.out` of the four arguments.
-/
import proofs.«122829_g2000005020077940_pallasbulk_39_2_alg».proof.Proof.Gen.ReferenceIdeal.Value
import proofs.«122829_g2000005020077940_pallasbulk_39_2_alg».proof.Proof.RefPayload
import proofs.«122829_g2000005020077940_pallasbulk_39_2_alg».proof.Proof.RefOperands
import Idealize.ShloMosaic.Lib.StableHlo.Run
import Idealize.ShloMosaic.Lib.Pipeline.Value
import Idealize.ShloMosaic.Lib.ValueLayout

noncomputable section

namespace Cert.ReferenceIdeal.Whole

open Cert.ReferenceIdeal Cert.ReferenceIdeal.Gen Idealize.ShloMosaic Idealize.ShloMosaic.TcCoe Idealize.SL.Sem
open Idealize.ShloMosaic.ValueIdx Cert.BnNeckSpec Cert.ReferenceIdeal.Operands
open Idealize.ShloMosaic.Pipeline (Dat)

variable (m : (ℓ : Loc nD τ sig) → Buf (Elt Ideal) ℓ) (ρ : Dev nD → PrngReg)

/-! ## The one block -/

/-- THE RESULT: `BnNeckSpec.out` of the four arguments as launched. -/
abbrev result (c : Dev nD) : S512x2048.Idx → EReal :=
  out (m ((c : Thread nD τ).loc main_arg0)) (m ((c : Thread nD τ).loc main_arg1)) (m ((c : Thread nD τ).loc main_arg2))
    (m ((c : Thread nD τ).loc main_arg3))

/-- The block's entry is the result's: for operands that hold the input, the transposed weight and the rows of scales
    and shifts, the body's store at `y` is `out` at the array index `i` with the same coordinates. -/
theorem block_entry (X : (⟨4, ![512, 2048, 1, 1]⟩ : Shape).Idx → EReal) (W : (⟨4, ![2048, 2048, 1, 1]⟩ : Shape).Idx → EReal)
    (γ β : (⟨1, ![2048]⟩ : Shape).Idx → EReal)
    (x0 : FVec Ideal S512x2048 .f32) (x1 : FVec Ideal S2048x2048 .f32) (x2 x3 : FVec Ideal S1x2048 .f32)
    (h0 : ∀ (p : Fin 512) (e : Fin 2048), x0 (ix2 p e) = X (ix4 p e 0 0))
    (h1 : ∀ (e : Fin 2048) (r : Fin 2048), x1 (ix2 e r) = W (ix4 r e 0 0))
    (h2 : ∀ r : Fin 2048, x2 (ix2 (0 : Fin 1) r) = γ (ix1 r))
    (h3 : ∀ r : Fin 2048, x3 (ix2 (0 : Fin 1) r) = β (ix1 r))
    (y : S512x2048.Idx) (i : S512x2048.Idx) (hi0 : (i 0).val = (y 0).val) (hi1 : (i 1).val = (y 1).val) :
    k0_pay1 (F := Ideal) (k0_pay2 (F := Ideal) x0 x1 x2 x3) (k0_pay3 (F := Ideal) x0 x1 x2 x3) (Scalar.ofBits .f32 0x3E800000#32) y
      = out X W γ β i := by
  obtain ⟨p, q, rfl⟩ : ∃ (p : Fin 512) (q : Fin 2048), y = ix2 p q := ⟨y 0, y 1, eq_ix2 y⟩
  have hi : i = ix2 p q := by
    funext a
    apply Fin.ext
    match a with
    | ⟨0, _⟩ => exact hi0
    | ⟨1, _⟩ => exact hi1
  rw [hi, out_apply, Payload.pay_apply]
  unfold outAt linear
  rw [h2 q, h3 q]
  congr 1
  funext p'
  exact Finset.sum_congr rfl fun e _ => by rw [h0 p' e, h1 e q]

/-! ## The index maps over the grid -/

theorem hz : (![0, 0] : Fin 2 → Nat) = fun _ => 0 := funext fun a => by fin_cases a <;> rfl

/-- Decided over the one point: every window's block index is the origin. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- There is a point. -/
theorem point : ∃ t : Fin cfg0.N, win0_4.index t = ![0, 0] :=
  (by decide +kernel : ∃ t : Fin grid0.N, win0_4.index t = ![0, 0])

/-! ## What the point writes back -/

/-- What the point writes back, for ANY contents `A` of the buffers at region entry whose four operands read as the
    arguments `X`, `W`, `γ`, `β` re-viewed: the block of `out X W γ β`. Only those four readings of `A` matter, not how
    `A` came about. -/
theorem flushed_of (c : Dev nD) (t : Fin cfg0.N) (A : (b : Ref sig .tc) → Buf (Elt Ideal) ((c : Thread nD τ).loc b))
    (X : (⟨4, ![512, 2048, 1, 1]⟩ : Shape).Idx → EReal) (W : (⟨4, ![2048, 2048, 1, 1]⟩ : Shape).Idx → EReal)
    (γ β : (⟨1, ![2048]⟩ : Shape).Idx → EReal)
    (hx : ∀ (p : Fin 512) (e : Fin 2048), (A main_v6 : S512x2048.Idx → EReal) (ix2 p e) = X (ix4 p e 0 0))
    (hw : ∀ (e : Fin 2048) (r : Fin 2048), (A main_v4 : S2048x2048.Idx → EReal) (ix2 e r) = W (ix4 r e 0 0))
    (hg : ∀ r : Fin 2048, (A main_v9 : S1x2048.Idx → EReal) (ix2 (0 : Fin 1) r) = γ (ix1 r))
    (hb : ∀ r : Fin 2048, (A main_v12 : S1x2048.Idx → EReal) (ix2 (0 : Fin 1) r) = β (ix1 r)) :
    (cfg0.win 4).cut (grid0.coords t)
        (out0_4 (((cfg0.win 0).blk t).view.read (Elt Ideal) (A (Pipeline.arrRef spec0 0)))
          (((cfg0.win 1).blk t).view.read (Elt Ideal) (A (Pipeline.arrRef spec0 1)))
          (((cfg0.win 2).blk t).view.read (Elt Ideal) (A (Pipeline.arrRef spec0 2)))
          (((cfg0.win 3).blk t).view.read (Elt Ideal) (A (Pipeline.arrRef spec0 3))))
      = ((cfg0.win 4).blk t).view.read (Elt Ideal) (out X W γ β) := by
  unfold out0_4
  rw [View.canon_unit_zero hz]
  simp only [View.ld_unit_zero (S := S512x2048) hz, View.ld_unit_zero (S := S2048x2048) hz, View.ld_unit_zero (S := S1x2048) hz]
  obtain ⟨e00, e01, e10, e11, e20, e21, e30, e31, e40, e41⟩ := idx_facts t
  funext y
  show k0_pay1 (F := Ideal)
      (k0_pay2 (F := Ideal) (((cfg0.win 0).blk t).view.read (Elt Ideal) (A (Pipeline.arrRef spec0 0)))
        (((cfg0.win 1).blk t).view.read (Elt Ideal) (A (Pipeline.arrRef spec0 1)))
        (((cfg0.win 2).blk t).view.read (Elt Ideal) (A (Pipeline.arrRef spec0 2)))
        (((cfg0.win 3).blk t).view.read (Elt Ideal) (A (Pipeline.arrRef spec0 3))))
      (k0_pay3 (F := Ideal) (((cfg0.win 0).blk t).view.read (Elt Ideal) (A (Pipeline.arrRef spec0 0)))
        (((cfg0.win 1).blk t).view.read (Elt Ideal) (A (Pipeline.arrRef spec0 1)))
        (((cfg0.win 2).blk t).view.read (Elt Ideal) (A (Pipeline.arrRef spec0 2)))
        (((cfg0.win 3).blk t).view.read (Elt Ideal) (A (Pipeline.arrRef spec0 3))))
      (Scalar.ofBits .f32 0x3E800000#32) y
    = out X W γ β (((cfg0.win 4).blk t).view.emb y)
  refine block_entry X W γ β _ _ _ _ ?_ ?_ ?_ ?_ y _ ?_ ?_
  · intro p e
    show A main_v6 (((cfg0.win 0).blk t).view.emb (ix2 p e)) = _
    have hi : ((cfg0.win 0).blk t).view.emb (ix2 p e) = ix2 p e := by
      funext a; apply Fin.ext
      match a with
      | ⟨0, _⟩ => show win0_0.index t (0 : Fin 2) * 512 + 1 * p.val = p.val; omega
      | ⟨1, _⟩ => show win0_0.index t (1 : Fin 2) * 2048 + 1 * e.val = e.val; omega
    rw [hi]
    exact hx p e
  · intro e r
    show A main_v4 (((cfg0.win 1).blk t).view.emb (ix2 e r)) = _
    have hi : ((cfg0.win 1).blk t).view.emb (ix2 e r) = ix2 e r := by
      funext a; apply Fin.ext
      match a with
      | ⟨0, _⟩ => show win0_1.index t (0 : Fin 2) * 2048 + 1 * e.val = e.val; omega
      | ⟨1, _⟩ => show win0_1.index t (1 : Fin 2) * 2048 + 1 * r.val = r.val; omega
    rw [hi]
    exact hw e r
  · intro r
    show A main_v9 (((cfg0.win 2).blk t).view.emb (ix2 (0 : Fin 1) r)) = _
    have hi : ((cfg0.win 2).blk t).view.emb (ix2 (0 : Fin 1) r) = ix2 (0 : Fin 1) r := by
      funext a; apply Fin.ext
      match a with
      | ⟨0, _⟩ => show win0_2.index t (0 : Fin 2) * 1 + 1 * 0 = 0; omega
      | ⟨1, _⟩ => show win0_2.index t (1 : Fin 2) * 2048 + 1 * r.val = r.val; omega
    rw [hi]
    exact hg r
  · intro r
    show A main_v12 (((cfg0.win 3).blk t).view.emb (ix2 (0 : Fin 1) r)) = _
    have hi : ((cfg0.win 3).blk t).view.emb (ix2 (0 : Fin 1) r) = ix2 (0 : Fin 1) r := by
      funext a; apply Fin.ext
      match a with
      | ⟨0, _⟩ => show win0_3.index t (0 : Fin 2) * 1 + 1 * 0 = 0; omega
      | ⟨1, _⟩ => show win0_3.index t (1 : Fin 2) * 2048 + 1 * r.val = r.val; omega
    rw [hi]
    exact hb r
  · show win0_4.index t (0 : Fin 2) * 512 + 1 * (y 0).val = (y 0).val
    omega
  · show win0_4.index t (1 : Fin 2) * 2048 + 1 * (y 1).val = (y 1).val
    omega

/-- WHAT THE POINT WRITES BACK is the result, read through its (whole-array) block. -/
theorem flushed_eq (c : Dev nD) (t : Fin cfg0.N) :
    (dats m 0 c).flushed 4 t = ((cfg0.win 4).blk t).view.read (Elt Ideal) (result m c) := by
  rw [Value.flushed4]
  exact flushed_of c t (V m c) _ _ _ _ (V_input m c) (V_weight m c) (V_scale m c) (V_shift m c)

/-! ## The block covers the array -/

/-- An index of the array is in point `t`'s block iff each coordinate is in the block's range on its axis. -/
theorem mem_blk (t : Fin cfg0.N) (i : S512x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v13).slice (win0_4.rect t)).set ↔ _
  rw [View.set_slice_whole, Rect.mem_set_unit]
  exact Iff.rfl

/-- Every index lies in the one point's block. -/
theorem cover (i : S512x2048.Idx) : ∃ t : Fin cfg0.N, (cfg0.win 4).flush t = true ∧ i ∈ ((cfg0.win 4).blk t).view.set := by
  have hi0 : (i 0).val < 512 := (i 0).isLt
  have hi1 : (i 1).val < 2048 := (i 1).isLt
  obtain ⟨t, ht⟩ := point
  have q0 : win0_4.index t (0 : Fin 2) = 0 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-! ## The array after the run, and the run -/

/-- THE ARRAY after the run is the result. -/
theorem final (c : Dev nD) : (dats m 0 c).arrAt 4 cfg0.N = result m c :=
  (dats m 0 c).arrAt_eq_of_cover 4 (result m c) (fun t _ => flushed_eq m c t) cover

/-- THE RUN: every weakly fair execution terminates with the result array at `BnNeckSpec.out` of the arguments, the
    arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.ReferenceIdeal.Whole

end
-- ==== Proof.lean ====
/-
  A linear layer followed by training-mode batch normalisation, an affine map and a leaky ramp, over the exact extended
  reals: the kernel tiled over output channels computes the same array as the one-block reference.

  Both programs form `y(p, c) = Σ_e x(p, e) · W(c, e)` for the 512 rows `p` and the 2048 channels `c` (the kernel by
  contracting the input's features against the features of a tile of 256 weight rows; the reference by a plain product
  against the transposed weight), and then do, channel by channel, the same thing to the column `y(·, c)`: its mean and
  biased variance over the 512 rows (sums times `2⁻⁹`), `(y − μ) · (v + ε)^(−1/2) · γ(c) + β(c)`, and the ramp that
  keeps `z ≥ 0` and quarters the rest (Proof/Spec.lean: `BnNeckSpec.out`). A channel's statistics use that channel's
  column only, so cutting the channels into 8 tiles changes nothing; the reference's mask "row < 512" over its two sums is
  all ones on a block of 512 rows; and the zero arrays the reference writes its operands into are overwritten whole.
  No law of arithmetic is needed to join the two sides — term by term they are the same sums, products and differences —
  so the finiteness of the inputs is never used.

  Proof/KernelPayload.lean and Proof/RefPayload.lean read the two bodies' stores at an index; Proof/KernelValue.lean and
  Proof/RefValue.lean carry the blocks to the whole result arrays and state the two runs; the frames are the generated
  ones, and the idealised kernel is the kernel's own text (nothing was rewritten).
-/
import proofs.«122829_g2000005020077940_pallasbulk_39_2_alg».proof.Defs
import proofs.«122829_g2000005020077940_pallasbulk_39_2_alg».proof.Proof.Gen.Kernel
import proofs.«122829_g2000005020077940_pallasbulk_39_2_alg».proof.Proof.Gen.Kernel.Frame
import proofs.«122829_g2000005020077940_pallasbulk_39_2_alg».proof.Proof.Gen.KernelIdeal
import proofs.«122829_g2000005020077940_pallasbulk_39_2_alg».proof.Proof.Gen.KernelIdeal.Frame
import proofs.«122829_g2000005020077940_pallasbulk_39_2_alg».proof.Proof.Gen.KernelIdeal.Value
import proofs.«122829_g2000005020077940_pallasbulk_39_2_alg».proof.Proof.Gen.ReferenceIdeal
import proofs.«122829_g2000005020077940_pallasbulk_39_2_alg».proof.Proof.Gen.ReferenceIdeal.Frame
import proofs.«122829_g2000005020077940_pallasbulk_39_2_alg».proof.Proof.Gen.ReferenceIdeal.Value
import proofs.«122829_g2000005020077940_pallasbulk_39_2_alg».proof.Proof.Gen.Pre_finite_inputs
import proofs.«122829_g2000005020077940_pallasbulk_39_2_alg».proof.Proof.KernelValue
import proofs.«122829_g2000005020077940_pallasbulk_39_2_alg».proof.Proof.RefValue

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference read over the extended reals. -/
theorem frame_referenceIdeal : Cert.frame_ReferenceIdeal := fun m ρ _ => Cert.ReferenceIdeal.Gen.frame m ρ

/-- The idealised kernel is the kernel's own text: there is nothing to preserve. -/
theorem preserves : Cert.preserves_Kernel_KernelIdeal := trivial

/-- From memories that agree on the four arguments, both programs end with `BnNeckSpec.out` of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun r h c => ⟨(h c).1.trans ?_, (h c).2⟩)
    (Cert.ReferenceIdeal.Whole.run m' ρ')
  unfold Cert.ReferenceIdeal.Whole.result Cert.KernelIdeal.Whole.result
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
